-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S8192x1024 .f32) (main_arg5 : FVec F S1024x512 .f32) (main_arg6 : FVec F S1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S8192x1024 .f32) (main_arg5 : FVec F S1024x512 .f32) (main_arg6 : FVec F S1024x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Kernel.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S512x1024 : Shape := ⟨2, ![512, 1024]⟩
abbrev S4x8192x1024 : Shape := ⟨3, ![4, 8192, 1024]⟩
abbrev S256x512 : Shape := ⟨2, ![256, 512]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x512, .f32⟩
  | .hbm, ⟨6, _⟩ => ⟨S1024x1024, .f32⟩
  | .hbm, ⟨7, _⟩ => ⟨S512x1024, .f32⟩
  | .hbm, ⟨8, _⟩ => ⟨S512x1024, .bf16⟩
  | .hbm, ⟨9, _⟩ => ⟨S1024x1024, .f32⟩
  | .hbm, ⟨10, _⟩ => ⟨S1024x1024, .bf16⟩
  | .hbm, ⟨11, _⟩ => ⟨S4x8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S4x256x1024, .f32⟩
  | .local _ .vmem, ⟨13, _⟩ => ⟨S4x256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x512_S512x1024_1_0 : S1024x512.Transposes [1, 0] S512x1024
  bitsLt_bf16_f32 : FTy.bits .bf16 < FTy.bits .f32
  transposes_S1024x1024_S1024x1024_1_0 : S1024x1024.Transposes [1, 0] S1024x1024
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  natLt_1_32 : 1 < 32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x1024.size a ≤ S4x8192x1024.size a
  hwx0_7 : ∀ i : grid0.Coords, EltTy.bits .f32 = 32 ∨ (Rect.block (s := S4x8192x1024) S4x256x1024.size (cc0_transform_7 i) (hinb0_7 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S4x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S_ : Shape := ⟨0, ![]⟩
abbrev S1x8192x1024 : Shape := ⟨3, ![1, 8192, 1024]⟩
abbrev S4x8192x1024 : Shape := ⟨3, ![4, 8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x512, .f32⟩
  | .hbm, ⟨6, _⟩ => ⟨S1024x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .i1⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S4x8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S4x8192x1024_d0 : Shape.Concatenates [S1x8192x1024, S1x8192x1024, S1x8192x1024, S1x8192x1024] S4x8192x1024 0
  dot_S8192x512_S1024x512_S8192x1024_1_1_0_0_n_n_wf : DotDims.WF S8192x512 S1024x512 S8192x1024 [1] [1] [0] [0] [] []
  dot_S8192x1024_S1024x1024_S8192x1024_1_1_0_0_n_n_wf : DotDims.WF S8192x1024 S1024x1024 S8192x1024 [1] [1] [0] [0] [] []

variable [Facts₀]

def dot_S8192x512_S1024x512_S8192x1024_1_1_0_0_n_n : DotDims S8192x512 S1024x512 S8192x1024 where
  lhsContracting := [1]
  rhsContracting := [1]
  lhsNonContracting := [0]
  rhsNonContracting := [0]
  lhsBatch := []
  rhsBatch := []
  wf := dot_S8192x512_S1024x512_S8192x1024_1_1_0_0_n_n_wf
def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.CellStep.lean ====
/-
  One Euler step of the adaptive-threshold spiking cell, on the extended reals.

  A neuron carries a voltage `v`, a synaptic current `i` and a threshold adaptation `b`. In one step the voltage
  leaks toward the current, `v' = v + α·((0 − v) + i)`, the current decays, `i' = i + β·i`, and the adaptation
  relaxes toward one, `b' = b + γ·(1 − b)` (α, β, γ the float literals 0.1, −0.2 and 1.25e−6, kept as their bit
  patterns: both programs carry the same words, so they are never evaluated). The neuron fires when `v' − b' > 0`;
  the spike `z` is that bit read as the number 0 or 1. The new state is
    z,   (1 − z)·v' + z·0,   (i' + s_in) + s_rec,   b' + (z·δ)·ε
  where `s_in`, `s_rec` are the input and recurrent synaptic sums of the neuron's row against its weight rows.
  `cellStep` stacks the four components along a leading axis of extent four, for a batch of any number of rows.

  The only law used between the two ways of computing the step is associativity of addition on the extended
  reals (the current adds the two synaptic sums in either grouping), which holds at the infinities too; and the
  spike bit widened to 32 bits and read as a signed integer is the same number as the bit read unsigned.
-/
import Mathlib
import Idealize.ShloMosaic.Lib.ValueIdx
import Idealize.ShloMosaic.PureOps.Ideal

noncomputable section

namespace Cert.Lsnn

open Idealize.ShloMosaic Idealize.ShloMosaic.ValueIdx

/-- The voltage after the leak, before any reset. -/
def vDecay (v i : EReal) : EReal :=
  v + Ideal.ofBits .f32 0x3DCCCCCD#32 * ((Ideal.ofBits .f32 0x00000000#32 - v) + i)

/-- The synaptic current after its decay, before the jumps. -/
def iDecay (i : EReal) : EReal := i + Ideal.ofBits .f32 0xBE4CCCCD#32 * i

/-- The threshold adaptation after its relaxation toward one. -/
def bDecay (b : EReal) : EReal :=
  b + Ideal.ofBits .f32 0x35A7C5AC#32 * (Ideal.ofBits .f32 0x3F800000#32 - b)

/-- Whether the neuron fires: the decayed voltage exceeds the decayed adaptation. -/
def fires (v i b : EReal) : BitVec 1 :=
  Ideal.cmp .ogt (vDecay v i - bDecay b) (Ideal.ofBits .f32 0x00000000#32)

/-- The spike as a number, 0 or 1. -/
def spike (v i b : EReal) : EReal := (((fires v i b).toNat : ℝ) : EReal)

/-- The voltage after the reset: kept where the neuron is silent, sent to zero where it fired. -/
def vNext (v i b : EReal) : EReal :=
  (Ideal.ofBits .f32 0x3F800000#32 - spike v i b) * vDecay v i + spike v i b * Ideal.ofBits .f32 0x00000000#32

/-- The adaptation after the spike's jump. -/
def bNext (v i b : EReal) : EReal :=
  bDecay b + spike v i b * Ideal.ofBits .f32 0x3AA3D70A#32 * Ideal.ofBits .f32 0x3FE66666#32

/-- The current after the input and the recurrent synaptic sums have been added, in that order. -/
def iNext (i sIn sRec : EReal) : EReal := iDecay i + sIn + sRec

/-- Adding the two synaptic sums to each other first gives the same current: addition is associative on the
    extended reals, the infinities included. -/
theorem iNext_of_grouped (i sIn sRec : EReal) : iDecay i + (sIn + sRec) = iNext i sIn sRec :=
  (add_assoc _ _ _).symm

/-- Component `s` of a neuron's new state (0 the spike, 1 the voltage, 2 the current, otherwise the adaptation). -/
def cell (s : Nat) (v i b sIn sRec : EReal) : EReal :=
  if s = 0 then spike v i b else if s = 1 then vNext v i b else if s = 2 then iNext i sIn sRec else bNext v i b

theorem cell_zero (v i b sIn sRec : EReal) : cell 0 v i b sIn sRec = spike v i b := rfl
theorem cell_one (v i b sIn sRec : EReal) : cell 1 v i b sIn sRec = vNext v i b := rfl
theorem cell_two (v i b sIn sRec : EReal) : cell 2 v i b sIn sRec = iNext i sIn sRec := rfl
theorem cell_three (v i b sIn sRec : EReal) : cell 3 v i b sIn sRec = bNext v i b := rfl

/-- A one-bit word widened to 32 bits by zeros and read as a SIGNED integer is the bit read unsigned: the
    widened word is 0 or 1, far below the sign bit. -/
theorem toInt_setWidth_bit (w : BitVec 1) : (((w.setWidth 32).toInt : ℝ) : EReal) = (((w.toNat : ℝ)) : EReal) := by
  rcases BitVec.eq_zero_or_eq_one w with h | h <;> subst h <;> simp

/-- The step for a batch of `B` rows: `sp` the input spikes [B, 512], `z v i b` the state [B, 1024],
    `wIn` [1024, 512] and `wRec` [1024, 1024] the weights, a neuron's synaptic sums the products of its batch row
    with ITS OWN weight row. Component `s`, batch row `r`, neuron `n`. -/
def cellStepAt {B : Nat} (sp : (⟨2, ![B, 512]⟩ : Shape).Idx → EReal)
    (z v i b : (⟨2, ![B, 1024]⟩ : Shape).Idx → EReal)
    (wIn : (⟨2, ![1024, 512]⟩ : Shape).Idx → EReal) (wRec : (⟨2, ![1024, 1024]⟩ : Shape).Idx → EReal)
    (s : Fin 4) (r : Fin B) (n : Fin 1024) : EReal :=
  cell s.val (v (ix2 r n)) (i (ix2 r n)) (b (ix2 r n))
    (∑ k : Fin 512, sp (ix2 r k) * wIn (ix2 n k)) (∑ k : Fin 1024, z (ix2 r k) * wRec (ix2 n k))

/-- The same step when the weights arrive TRANSPOSED, [512, 1024] and [1024, 1024] with the neuron on the last axis:
    a neuron's synaptic sums run down ITS COLUMN of the transposed weights. -/
def cellStepTAt {B : Nat} (sp : (⟨2, ![B, 512]⟩ : Shape).Idx → EReal)
    (z v i b : (⟨2, ![B, 1024]⟩ : Shape).Idx → EReal)
    (wInT : (⟨2, ![512, 1024]⟩ : Shape).Idx → EReal) (wRecT : (⟨2, ![1024, 1024]⟩ : Shape).Idx → EReal)
    (s : Fin 4) (r : Fin B) (n : Fin 1024) : EReal :=
  cell s.val (v (ix2 r n)) (i (ix2 r n)) (b (ix2 r n))
    (∑ k : Fin 512, sp (ix2 r k) * wInT (ix2 k n)) (∑ k : Fin 1024, z (ix2 r k) * wRecT (ix2 k n))

/-- A block of rows of the batch, stepped against transposed weights, is that block of the whole batch's step: if
    the block's rows are the rows `ρ r` of the arrays and the transposed weights are the weights' transposes, the
    block's step at `(s, r, n)` is the batch's at `(s, ρ r, n)`. -/
theorem cellStepTAt_block {Bb B : Nat} (ρ : Fin Bb → Fin B)
    (x0 : (⟨2, ![Bb, 512]⟩ : Shape).Idx → EReal) (x1 x2 x3 x4 : (⟨2, ![Bb, 1024]⟩ : Shape).Idx → EReal)
    (x5 : (⟨2, ![512, 1024]⟩ : Shape).Idx → EReal) (x6 : (⟨2, ![1024, 1024]⟩ : Shape).Idx → EReal)
    (sp : (⟨2, ![B, 512]⟩ : Shape).Idx → EReal) (z v i b : (⟨2, ![B, 1024]⟩ : Shape).Idx → EReal)
    (wIn : (⟨2, ![1024, 512]⟩ : Shape).Idx → EReal) (wRec : (⟨2, ![1024, 1024]⟩ : Shape).Idx → EReal)
    (h0 : ∀ r k, x0 (ix2 r k) = sp (ix2 (ρ r) k)) (h1 : ∀ r k, x1 (ix2 r k) = z (ix2 (ρ r) k))
    (h2 : ∀ r n, x2 (ix2 r n) = v (ix2 (ρ r) n)) (h3 : ∀ r n, x3 (ix2 r n) = i (ix2 (ρ r) n))
    (h4 : ∀ r n, x4 (ix2 r n) = b (ix2 (ρ r) n))
    (h5 : ∀ k n, x5 (ix2 k n) = wIn (ix2 n k)) (h6 : ∀ k n, x6 (ix2 k n) = wRec (ix2 n k))
    (s : Fin 4) (r : Fin Bb) (n : Fin 1024) :
    cellStepTAt x0 x1 x2 x3 x4 x5 x6 s r n = cellStepAt sp z v i b wIn wRec s (ρ r) n := by
  unfold cellStepTAt cellStepAt
  rw [h2, h3, h4]
  congr 1
  · exact Finset.sum_congr rfl fun k _ => by rw [h0, h5]
  · exact Finset.sum_congr rfl fun k _ => by rw [h1, h6]

end Cert.Lsnn

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.BodyStep.lean ====
/-
  What the kernel body leaves in its output block, entry by entry: the cell step of the seven input blocks, with the
  weight blocks transposed (`cellStepTAt`). The body stores four [1, 256, 1024] slabs into its [4, 256, 1024] block,
  one per component of the new state. Three are pointwise in the state blocks; the current adds to its decay the sum of
  two matrix products into zero accumulators, [256, 512]·[512, 1024] and [256, 1024]·[1024, 1024], each entry a sum
  over the contracted index. The spike reaches the slabs as a bit widened to a 32-bit integer and converted as signed,
  which is the bit's own value; the two products are added to each other before the decayed current, which is the
  same sum by associativity.
-/
import proofs.«102096_j49117245997795_2_alg».proof.Proof.Gen.KernelIdeal.Frame
import proofs.«102096_j49117245997795_2_alg».proof.Proof.CellStep
import proofs.«102096_j49117245997795_2_alg».proof.Proof.LibDot
import Idealize.ShloMosaic.Lib.Pipeline.Value

noncomputable section

namespace Cert.Lsnn.Body

open Cert.KernelIdeal Cert.KernelIdeal.Gen Idealize.ShloMosaic Idealize.ShloMosaic.ValueIdx Cert.Lsnn

theorem zeros2 : (![0, 0] : Fin 2 → Nat) = fun _ => 0 := funext fun a => by fin_cases a <;> rfl

variable (x0 : FVec Ideal S256x512 .f32) (x1 x2 x3 x4 : FVec Ideal S256x1024 .f32)
  (x5 : FVec Ideal S512x1024 .bf16) (x6 : FVec Ideal S1024x1024 .bf16)

/-- The body's spike at a neuron of the block. -/
theorem spike_at (q : S256x1024.Idx) : k0_pay8 (F := Ideal) x2 x3 x4 q = spike (x2 q) (x3 q) (x4 q) :=
  Eq.trans rfl (toInt_setWidth_bit (fires (x2 q) (x3 q) (x4 q)))

/-- The body's reset voltage at a neuron of the block. -/
theorem vNext_at (q : S256x1024.Idx) : k0_pay9 (F := Ideal) x2 x3 x4 q = vNext (x2 q) (x3 q) (x4 q) := by
  show (Ideal.ofBits .f32 0x3F800000#32 - k0_pay8 (F := Ideal) x2 x3 x4 q) * vDecay (x2 q) (x3 q)
      + k0_pay8 (F := Ideal) x2 x3 x4 q * Ideal.ofBits .f32 0x00000000#32 = _
  rw [spike_at]; rfl

/-- The coordinate facts of the body's two matrix products: axis 1 of the left operand against axis 0 of the right. -/
theorem plain_in : LibDot.Plain dot_S256x512_S512x1024_S256x1024_1_0_0_1_n_n where
  hrank := rfl
  hs := rfl
  hl0 := fun j k => by
    unfold DotDims.lhsIdx
    rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
    rfl
  hl1 := fun j k => dot_S256x512_S512x1024_S256x1024_1_0_0_1_n_n.lhsIdx_val_of_single rfl j k
  hr0 := fun j k => dot_S256x512_S512x1024_S256x1024_1_0_0_1_n_n.rhsIdx_val_of_single rfl j k
  hr1 := fun j k => by
    unfold DotDims.rhsIdx
    rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
    rfl

theorem plain_rec : LibDot.Plain dot_S256x1024_S1024x1024_S256x1024_1_0_0_1_n_n where
  hrank := rfl
  hs := rfl
  hl0 := fun j k => by
    unfold DotDims.lhsIdx
    rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
    rfl
  hl1 := fun j k => dot_S256x1024_S1024x1024_S256x1024_1_0_0_1_n_n.lhsIdx_val_of_single rfl j k
  hr0 := fun j k => dot_S256x1024_S1024x1024_S256x1024_1_0_0_1_n_n.rhsIdx_val_of_single rfl j k
  hr1 := fun j k => by
    unfold DotDims.rhsIdx
    rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
    rfl

/-- The input synaptic sum the body computes, at batch row `r` of the block and neuron `n`. -/
theorem sIn_at (r : Fin 256) (n : Fin 1024) :
    k0_pay11 (F := Ideal) x0 x5 (ix2 r n) = ∑ k : Fin 512, x0 (ix2 r k) * x5 (ix2 k n) := by
  unfold k0_pay11
  rw [shapeCast_self]
  exact LibDot.matmul_ix2 plain_in none (truncf .bf16 x0 bitsLt_bf16_f32) x5 r n

/-- The body's current at batch row `r` of the block and neuron `n`. -/
theorem iNext_at (r : Fin 256) (n : Fin 1024) :
    addf (k0_pay6 (F := Ideal) x3) (addf (k0_pay11 (F := Ideal) x0 x5)
        (matmul dot_S256x1024_S1024x1024_S256x1024_1_0_0_1_n_n none (k0_pay10 (F := Ideal) x1)
          (shapeCast S1024x1024 x6 shapeCasts_S1024x1024_S1024x1024) (constant S256x1024 .f32 0x00000000#32))) (ix2 r n)
      = iNext (x3 (ix2 r n)) (∑ k : Fin 512, x0 (ix2 r k) * x5 (ix2 k n)) (∑ k : Fin 1024, x1 (ix2 r k) * x6 (ix2 k n)) := by
  rw [shapeCast_self]
  refine Eq.trans ?_ (iNext_of_grouped _ _ _)
  show iDecay (x3 (ix2 r n)) + (k0_pay11 (F := Ideal) x0 x5 (ix2 r n) + matmul dot_S256x1024_S1024x1024_S256x1024_1_0_0_1_n_n none (k0_pay10 (F := Ideal) x1) x6 (constant S256x1024 .f32 0x00000000#32) (ix2 r n)) = _
  rw [sIn_at, LibDot.matmul_ix2 plain_rec none (k0_pay10 (F := Ideal) x1) x6 r n]
  rfl

/-- A slab's entry is the stored [256, 1024] value at the entry's last two coordinates. -/
theorem slab_at (w : FVec Ideal S256x1024 .f32) (x : S1x256x1024.Idx) :
    shapeCast S1x256x1024 w shapeCasts_S256x1024_S1x256x1024 x = w (ix2 (x 1) (x 2)) := by
  refine (shapeCast_addUnit_apply ![256, 1024] w shapeCasts_S256x1024_S1x256x1024 x).trans (congrArg w ?_)
  exact funext fun a => Fin.ext (by match a with | ⟨0, _⟩ => rfl | ⟨1, _⟩ => rfl)

/-- THE BODY'S OUTPUT BLOCK, entry by entry, is the cell step of the input blocks against the transposed weight blocks:
    each of the four stored slabs is one component, at the slab's offset along the leading axis. -/
theorem out_block (y : S4x256x1024.Idx) :
    out0_7 (F := Ideal) x0 x1 x2 x3 x4 x5 x6 y = cellStepTAt x0 x1 x2 x3 x4 x5 x6 (y 0) (y 1) (y 2) := by
  unfold out0_7
  simp only [View.ld_unit_zero (S := S256x1024) zeros2, View.ld_unit_zero (S := S256x512) zeros2,
    View.ld_unit_zero (S := S512x1024) zeros2, View.ld_unit_zero (S := S1024x1024) zeros2]
  refine View.canon_apply_of_pieces (Val := Elt Ideal) (S := S4x256x1024) (e := .f32) (fun y => cellStepTAt x0 x1 x2 x3 x4 x5 x6 (y 0) (y 1) (y 2)) _ ?_ y (cover0_7 _ _ _ _ y)
  intro pc hpc
  rcases List.mem_cons.mp hpc with rfl | hpc  -- the adaptation, at offset 3
  · intro (x : S1x256x1024.Idx)
    have he : r0_7.emb x = ix3 (⟨3, by omega⟩ : Fin 4) (x 1) (x 2) := funext fun a => Fin.ext (by
      match a with
      | ⟨0, _⟩ => show 3 + 1 * (x 0).val = 3; have h : (x 0).val < 1 := (x 0).isLt; omega
      | ⟨1, _⟩ => show 0 + 1 * (x 1).val = (x 1).val; omega
      | ⟨2, _⟩ => show 0 + 1 * (x 2).val = (x 2).val; omega)
    show k0_pay4 (F := Ideal) (k0_pay7 x4) (k0_pay8 x2 x3 x4) x = cellStepTAt x0 x1 x2 x3 x4 x5 x6 ((r0_7.emb x) 0) ((r0_7.emb x) 1) ((r0_7.emb x) 2)
    rw [he]
    unfold k0_pay4
    rw [slab_at]
    show bDecay (x4 (ix2 (x 1) (x 2))) + k0_pay8 (F := Ideal) x2 x3 x4 (ix2 (x 1) (x 2)) * Ideal.ofBits .f32 0x3AA3D70A#32 * Ideal.ofBits .f32 0x3FE66666#32 = _
    rw [spike_at]; rfl
  rcases List.mem_cons.mp hpc with rfl | hpc  -- the current, at offset 2
  · intro (x : S1x256x1024.Idx)
    have he : r0_6.emb x = ix3 (⟨2, by omega⟩ : Fin 4) (x 1) (x 2) := funext fun a => Fin.ext (by
      match a with
      | ⟨0, _⟩ => show 2 + 1 * (x 0).val = 2; have h : (x 0).val < 1 := (x 0).isLt; omega
      | ⟨1, _⟩ => show 0 + 1 * (x 1).val = (x 1).val; omega
      | ⟨2, _⟩ => show 0 + 1 * (x 2).val = (x 2).val; omega)
    show k0_pay3 (F := Ideal) (k0_pay6 x3) (k0_pay10 x1) (k0_pay11 x0 x5) x6 x = cellStepTAt x0 x1 x2 x3 x4 x5 x6 ((r0_6.emb x) 0) ((r0_6.emb x) 1) ((r0_6.emb x) 2)
    rw [he]
    unfold k0_pay3
    rw [slab_at]
    exact (iNext_at x0 x1 x3 x5 x6 (x 1) (x 2)).trans rfl
  rcases List.mem_cons.mp hpc with rfl | hpc  -- the voltage, at offset 1
  · intro (x : S1x256x1024.Idx)
    have he : r0_5.emb x = ix3 (⟨1, by omega⟩ : Fin 4) (x 1) (x 2) := funext fun a => Fin.ext (by
      match a with
      | ⟨0, _⟩ => show 1 + 1 * (x 0).val = 1; have h : (x 0).val < 1 := (x 0).isLt; omega
      | ⟨1, _⟩ => show 0 + 1 * (x 1).val = (x 1).val; omega
      | ⟨2, _⟩ => show 0 + 1 * (x 2).val = (x 2).val; omega)
    show k0_pay2 (F := Ideal) (k0_pay9 x2 x3 x4) x = cellStepTAt x0 x1 x2 x3 x4 x5 x6 ((r0_5.emb x) 0) ((r0_5.emb x) 1) ((r0_5.emb x) 2)
    rw [he]
    unfold k0_pay2
    rw [slab_at, vNext_at]; rfl
  rcases List.mem_cons.mp hpc with rfl | hpc  -- the spike, at offset 0
  · intro (x : S1x256x1024.Idx)
    have he : r0_4.emb x = ix3 (⟨0, by omega⟩ : Fin 4) (x 1) (x 2) := funext fun a => Fin.ext (by
      match a with
      | ⟨0, _⟩ => show 0 + 1 * (x 0).val = 0; have h : (x 0).val < 1 := (x 0).isLt; omega
      | ⟨1, _⟩ => show 0 + 1 * (x 1).val = (x 1).val; omega
      | ⟨2, _⟩ => show 0 + 1 * (x 2).val = (x 2).val; omega)
    show k0_pay1 (F := Ideal) (k0_pay8 x2 x3 x4) x = cellStepTAt x0 x1 x2 x3 x4 x5 x6 ((r0_4.emb x) 0) ((r0_4.emb x) 1) ((r0_4.emb x) 2)
    rw [he]
    unfold k0_pay1
    rw [slab_at, spike_at]; rfl
  · exact absurd hpc (List.not_mem_nil)

end Cert.Lsnn.Body

end
-- ==== Proof.KernelStep.lean ====
/-
  The kernel's result array after the run is the cell step of its seven arguments.

  The 32 grid points each take one block of 256 batch rows of the spikes and of the state arrays (block `t` is rows
  `256·t … 256·t + 255`) and the whole of the two weight arrays, which the program has transposed (and changed the format
  of, which is the identity on extended reals) before the region; point `t` writes back rows `256·t …` of all four
  components of the result. So what point `t` writes is block `t` of one whole-array function, the cell step, and the
  32 blocks cover the array.
-/
import proofs.«102096_j49117245997795_2_alg».proof.Proof.Gen.KernelIdeal.Value
import proofs.«102096_j49117245997795_2_alg».proof.Proof.BodyStep
import Idealize.ShloMosaic.Lib.StableHlo.Run
import Idealize.ShloMosaic.Lib.Pipeline.Value

noncomputable section

namespace Cert.Lsnn.Kernel

open Cert.KernelIdeal Cert.KernelIdeal.Gen Idealize.ShloMosaic Idealize.ShloMosaic.TcCoe Idealize.SL.Sem
open Idealize.ShloMosaic.ValueIdx Cert.Lsnn
open Idealize.ShloMosaic.Pipeline (Dat)

variable (m : (ℓ : Loc nD τ sig) → Buf (Elt Ideal) ℓ) (ρ : Dev nD → PrngReg)

/-- The cell step of the arguments as launched: what the result array will hold. -/
def stepOf (c : Dev nD) : S4x8192x1024.Idx → EReal := fun j =>
  cellStepAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (j 0) (j 1) (j 2)

/-- Where each window's block sits, decided over the 32 grid points: the five batch windows and the result's move one
    block of rows per point, the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = t.val ∧ win0_7.index t (2 : Fin 3) = 0 :=
  (by decide +kernel : ∀ t : Fin grid0.N, _)

/-- Every block of rows of the result is some point's. -/
theorem idx_onto : ∀ q : Fin 32, ∃ t : Fin cfg0.N, t.val = q.val :=
  (by decide +kernel : ∀ q : Fin 32, ∃ t : Fin grid0.N, t.val = q.val)

theorem point_lt (t : Fin cfg0.N) : t.val < 32 := lt_of_lt_of_eq t.isLt (show cfg0.N = 32 from N_0)

/-- The input weights as the region finds them: the argument transposed. -/
theorem wIn_entry (c : Dev nD) (k : Fin 512) (n : Fin 1024) :
    (V m c main_v1 : S512x1024.Idx → EReal) (ix2 k n) = m ((c : Thread nD τ).loc main_arg5) (ix2 n k) := by
  have e : (V m c main_v1 : S512x1024.Idx → EReal)
      = truncf (F := Ideal) .bf16 (transpose S512x1024 [1, 0] (m ((c : Thread nD τ).loc main_arg5)) transposes_S1024x512_S512x1024_1_0) bitsLt_bf16_f32 := by
    dsimp only [Gen.V, Gen.hostOps0]; after_results
  rw [e]
  show transpose S512x1024 [1, 0] (m ((c : Thread nD τ).loc main_arg5)) transposes_S1024x512_S512x1024_1_0 (ix2 k n) = _
  exact transpose_apply [1, 0] _ _ (ix2 k n) (ix2 n k) (fun b => by match b with | ⟨0, _⟩ => rfl | ⟨1, _⟩ => rfl)

/-- The recurrent weights as the region finds them: the argument transposed. -/
theorem wRec_entry (c : Dev nD) (k : Fin 1024) (n : Fin 1024) :
    (V m c main_v3 : S1024x1024.Idx → EReal) (ix2 k n) = m ((c : Thread nD τ).loc main_arg6) (ix2 n k) := by
  have e : (V m c main_v3 : S1024x1024.Idx → EReal)
      = truncf (F := Ideal) .bf16 (transpose S1024x1024 [1, 0] (m ((c : Thread nD τ).loc main_arg6)) transposes_S1024x1024_S1024x1024_1_0) bitsLt_bf16_f32 := by
    dsimp only [Gen.V, Gen.hostOps0]; after_results
  rw [e]
  show transpose S1024x1024 [1, 0] (m ((c : Thread nD τ).loc main_arg6)) transposes_S1024x1024_S1024x1024_1_0 (ix2 k n) = _
  exact transpose_apply [1, 0] _ _ (ix2 k n) (ix2 n k) (fun b => by match b with | ⟨0, _⟩ => rfl | ⟨1, _⟩ => rfl)

/-- Row `r` of point `t`'s block is row `256·t + r` of the batch. -/
def rowOf (t : Fin cfg0.N) (r : Fin 256) : Fin 8192 :=
  ⟨t.val * 256 + r.val, by have := point_lt t; have := r.isLt; omega⟩

/-- The spikes' block at point `t`. -/
theorem read0 (c : Dev nD) (t : Fin cfg0.N) (r : Fin 256) (k : Fin 512) :
    (iblk m c 0 t : S256x512.Idx → EReal) (ix2 r k) = m ((c : Thread nD τ).loc main_arg0) (ix2 (rowOf t r) k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 256 + 1 * r.val = t.val * 256 + r.val; omega
  | ⟨1, _⟩ => show win0_0.index t (1 : Fin 2) * 512 + 1 * k.val = k.val; omega

/-- The previous spikes' block at point `t`. -/
theorem read1 (c : Dev nD) (t : Fin cfg0.N) (r : Fin 256) (k : Fin 1024) :
    (iblk m c 1 t : S256x1024.Idx → EReal) (ix2 r k) = m ((c : Thread nD τ).loc main_arg1) (ix2 (rowOf t r) k) := by
  obtain ⟨-, -, e0, e1, -⟩ := idx_facts t
  show V m c main_arg1 (((cfg0.win 1).blk t).view.emb (ix2 r k)) = _
  rw [V_main_arg1]
  refine congrArg (m ((c : Thread nD τ).loc main_arg1)) (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * k.val = k.val; omega

/-- The voltages' block at point `t`. -/
theorem read2 (c : Dev nD) (t : Fin cfg0.N) (r : Fin 256) (k : Fin 1024) :
    (iblk m c 2 t : S256x1024.Idx → EReal) (ix2 r k) = m ((c : Thread nD τ).loc main_arg2) (ix2 (rowOf t r) k) := by
  obtain ⟨-, -, -, -, e0, e1, -⟩ := idx_facts t
  show V m c main_arg2 (((cfg0.win 2).blk t).view.emb (ix2 r k)) = _
  rw [V_main_arg2]
  refine congrArg (m ((c : Thread nD τ).loc main_arg2)) (funext fun a => Fin.ext ?_)
  match a with
  | ⟨0, _⟩ => show win0_2.index t (0 : Fin 2) * 256 + 1 * r.val = t.val * 256 + r.val; omega
  | ⟨1, _⟩ => show win0_2.index t (1 : Fin 2) * 1024 + 1 * k.val = k.val; omega

/-- The currents' block at point `t`. -/
theorem read3 (c : Dev nD) (t : Fin cfg0.N) (r : Fin 256) (k : Fin 1024) :
    (iblk m c 3 t : S256x1024.Idx → EReal) (ix2 r k) = m ((c : Thread nD τ).loc main_arg3) (ix2 (rowOf t r) k) := by
  obtain ⟨-, -, -, -, -, -, e0, e1, -⟩ := idx_facts t
  show V m c main_arg3 (((cfg0.win 3).blk t).view.emb (ix2 r k)) = _
  rw [V_main_arg3]
  refine congrArg (m ((c : Thread nD τ).loc main_arg3)) (funext fun a => Fin.ext ?_)
  match a with
  | ⟨0, _⟩ => show win0_3.index t (0 : Fin 2) * 256 + 1 * r.val = t.val * 256 + r.val; omega
  | ⟨1, _⟩ => show win0_3.index t (1 : Fin 2) * 1024 + 1 * k.val = k.val; omega

/-- The adaptations' block at point `t`. -/
theorem read4 (c : Dev nD) (t : Fin cfg0.N) (r : Fin 256) (k : Fin 1024) :
    (iblk m c 4 t : S256x1024.Idx → EReal) (ix2 r k) = m ((c : Thread nD τ).loc main_arg4) (ix2 (rowOf t r) k) := by
  obtain ⟨-, -, -, -, -, -, -, -, e0, e1, -⟩ := idx_facts t
  show V m c main_arg4 (((cfg0.win 4).blk t).view.emb (ix2 r k)) = _
  rw [V_main_arg4]
  refine congrArg (m ((c : Thread nD τ).loc main_arg4)) (funext fun a => Fin.ext ?_)
  match a with
  | ⟨0, _⟩ => show win0_4.index t (0 : Fin 2) * 256 + 1 * r.val = t.val * 256 + r.val; omega
  | ⟨1, _⟩ => show win0_4.index t (1 : Fin 2) * 1024 + 1 * k.val = k.val; omega

/-- The input weights' block, the whole transposed array at every point. -/
theorem read5 (c : Dev nD) (t : Fin cfg0.N) (k : Fin 512) (n : Fin 1024) :
    (iblk m c 5 t : S512x1024.Idx → EReal) (ix2 k n) = m ((c : Thread nD τ).loc main_arg5) (ix2 n k) := by
  obtain ⟨-, -, -, -, -, -, -, -, -, -, e0, e1, -⟩ := idx_facts t
  refine Eq.trans ?_ (wIn_entry m c k n)
  show V m c main_v1 (((cfg0.win 5).blk t).view.emb (ix2 k n)) = V m c main_v1 (ix2 k n)
  refine congrArg (V m c main_v1) (funext fun a => Fin.ext ?_)
  match a with
  | ⟨0, _⟩ => show win0_5.index t (0 : Fin 2) * 512 + 1 * k.val = k.val; omega
  | ⟨1, _⟩ => show win0_5.index t (1 : Fin 2) * 1024 + 1 * n.val = n.val; omega

/-- The recurrent weights' block, the whole transposed array at every point. -/
theorem read6 (c : Dev nD) (t : Fin cfg0.N) (k : Fin 1024) (n : Fin 1024) :
    (iblk m c 6 t : S1024x1024.Idx → EReal) (ix2 k n) = m ((c : Thread nD τ).loc main_arg6) (ix2 n k) := by
  obtain ⟨-, -, -, -, -, -, -, -, -, -, -, -, e0, e1, -⟩ := idx_facts t
  refine Eq.trans ?_ (wRec_entry m c k n)
  show V m c main_v3 (((cfg0.win 6).blk t).view.emb (ix2 k n)) = V m c main_v3 (ix2 k n)
  refine congrArg (V m c main_v3) (funext fun a => Fin.ext ?_)
  match a with
  | ⟨0, _⟩ => show win0_6.index t (0 : Fin 2) * 1024 + 1 * k.val = k.val; omega
  | ⟨1, _⟩ => show win0_6.index t (1 : Fin 2) * 1024 + 1 * n.val = n.val; omega

/-- WHAT POINT `t` WRITES BACK is block `t` of the cell step of the arguments. -/
theorem flushed_eq (c : Dev nD) (t : Fin cfg0.N) :
    (dats m 0 c).flushed 7 t = ((cfg0.win 7).blk t).view.read (Elt Ideal) (stepOf m c) := by
  rw [Cert.KernelIdeal.Value.flushed7]
  obtain ⟨-, -, -, -, -, -, -, -, -, -, -, -, -, -, e0, e1, e2⟩ := idx_facts t
  funext y
  have hy : ((cfg0.win 7).blk t).view.emb y = ix3 (y 0) (rowOf t (y 1)) (y 2) := funext fun a => Fin.ext (by
    match a with
    | ⟨0, _⟩ => show win0_7.index t (0 : Fin 3) * 4 + 1 * (y 0).val = (y 0).val; omega
    | ⟨1, _⟩ => show win0_7.index t (1 : Fin 3) * 256 + 1 * (y 1).val = t.val * 256 + (y 1).val; omega
    | ⟨2, _⟩ => show win0_7.index t (2 : Fin 3) * 1024 + 1 * (y 2).val = (y 2).val; omega)
  show out0_7 (iblk m c 0 t) (iblk m c 1 t) (iblk m c 2 t) (iblk m c 3 t) (iblk m c 4 t) (iblk m c 5 t) (iblk m c 6 t) y
    = stepOf m c (((cfg0.win 7).blk t).view.emb y)
  rw [hy]
  refine (Body.out_block (iblk m c 0 t) (iblk m c 1 t) (iblk m c 2 t) (iblk m c 3 t) (iblk m c 4 t) (iblk m c 5 t) (iblk m c 6 t) y).trans ?_
  exact cellStepTAt_block (Bb := 256) (B := 8192) (rowOf t) (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    (read0 m c t) (read1 m c t) (read2 m c t) (read3 m c t) (read4 m c t) (read5 m c t) (read6 m c t) (y 0) (y 1) (y 2)

/-- An index of the result array is in point `t`'s block iff each coordinate is in the block's range on its axis. -/
theorem mem_blk (t : Fin cfg0.N) (i : S4x8192x1024.Idx) :
    i ∈ ((cfg0.win 7).blk t).view.set ↔ ∀ a : Fin 3, win0_7.index t a * S4x256x1024.size a ≤ (i a).val ∧ (i a).val < win0_7.index t a * S4x256x1024.size a + S4x256x1024.size a := by
  show i ∈ ((View.whole main_v4).slice (win0_7.rect t)).set ↔ _
  rw [View.set_slice_whole, Rect.mem_set_unit]
  exact Iff.rfl

/-- Every entry of the result array is in the block of the point its batch row names. -/
theorem covered (i : S4x8192x1024.Idx) :
    ∃ t : Fin cfg0.N, (cfg0.win 7).flush t = true ∧ i ∈ ((cfg0.win 7).blk t).view.set := by
  have hi0 : (i 0).val < 4 := (i 0).isLt
  have hi1 : (i 1).val < 8192 := (i 1).isLt
  have hi2 : (i 2).val < 1024 := (i 2).isLt
  obtain ⟨t, ht⟩ := idx_onto ⟨(i 1).val / 256, by omega⟩
  have ht' : t.val = (i 1).val / 256 := ht
  obtain ⟨-, -, -, -, -, -, -, -, -, -, -, -, -, -, e0, e1, e2⟩ := idx_facts t
  refine ⟨t, flush0_7 t, ?_⟩
  rw [mem_blk]
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- THE RESULT ARRAY after the run is the cell step of the arguments. -/
theorem final (c : Dev nD) : (dats m 0 c).arrAt 7 cfg0.N = stepOf m c :=
  (dats m 0 c).arrAt_eq_of_cover 7 (stepOf m c) (fun t _ => flushed_eq m c t) covered

/-- The kernel's run: every weakly fair execution ends with the result array at the cell step of the arguments and the
    arguments as launched. -/
theorem run : θ_run defs (onTc (τ := τ) (main (F := Ideal))) ⟨m, fun _ => 0, ρ⟩ fun r => ∀ c : Dev nD,
      r.2.mem ((c : Thread nD τ).loc main_v4) = stepOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Lsnn.Kernel

end
-- ==== Proof.ReferenceStep.lean ====
/-
  The reference computes the cell step: its result array, read at component `s`, batch row `r`, neuron `n`, is
  `cellStepAt` of its seven argument arrays there. The reference stacks four [8192, 1024] arrays along a new leading
  axis; each is a pointwise expression of the state arrays, except the current, which adds the two products of a batch
  row with a weight row (the contraction over the last axis of both operands) one after the other.
-/
import proofs.«102096_j49117245997795_2_alg».proof.Proof.Gen.ReferenceIdeal.Read
import proofs.«102096_j49117245997795_2_alg».proof.Proof.CellStep

noncomputable section

namespace Cert.Lsnn.Reference

open Cert.ReferenceIdeal Cert.ReferenceIdeal.Read Idealize.ShloMosaic Idealize.ShloMosaic.ValueIdx Cert.Lsnn

variable (x0 : (⟨S8192x512, .f32⟩ : BufTy).Contents (Elt Ideal))
  (x1 x2 x3 x4 : (⟨S8192x1024, .f32⟩ : BufTy).Contents (Elt Ideal))
  (x5 : (⟨S1024x512, .f32⟩ : BufTy).Contents (Elt Ideal)) (x6 : (⟨S1024x1024, .f32⟩ : BufTy).Contents (Elt Ideal))

/-- The reference's spike array at a neuron. -/
theorem spike_at (q : S8192x1024.Idx) : val_main_v17 (F := Ideal) x2 x3 x4 q = spike (x2 q) (x3 q) (x4 q) := rfl

/-- The reference's reset voltage at a neuron. -/
theorem vNext_at (q : S8192x1024.Idx) : val_main_v23 (F := Ideal) x2 x3 x4 q = vNext (x2 q) (x3 q) (x4 q) := rfl

/-- The reference's adaptation at a neuron. -/
theorem bNext_at (q : S8192x1024.Idx) : val_main_v32 (F := Ideal) x2 x3 x4 q = bNext (x2 q) (x3 q) (x4 q) := rfl

/-- The reference's current at a neuron: the decayed current plus the input sum, plus the recurrent sum. -/
theorem iNext_at (r : Fin 8192) (n : Fin 1024) :
    val_main_v27 (F := Ideal) x0 x1 x3 x5 x6 (ix2 r n)
      = iNext (x3 (ix2 r n)) (∑ k : Fin 512, x0 (ix2 r k) * x5 (ix2 n k)) (∑ k : Fin 1024, x1 (ix2 r k) * x6 (ix2 n k)) := by
  rw [val_main_v27_apply, val_main_v25_apply, val_main_v24_apply, val_main_v26_apply]
  have el24 : ∀ k : Fin 512, lidx_main_v24 (ix2 r n) k = ix2 r k := fun k =>
    funext fun a => Fin.ext (by match a with | ⟨0, _⟩ => rfl | ⟨1, _⟩ => rfl)
  have er24 : ∀ k : Fin 512, ridx_main_v24 (ix2 r n) k = ix2 n k := fun k =>
    funext fun a => Fin.ext (by match a with | ⟨0, _⟩ => rfl | ⟨1, _⟩ => rfl)
  have el26 : ∀ k : Fin 1024, lidx_main_v26 (ix2 r n) k = ix2 r k := fun k =>
    funext fun a => Fin.ext (by match a with | ⟨0, _⟩ => rfl | ⟨1, _⟩ => rfl)
  have er26 : ∀ k : Fin 1024, ridx_main_v26 (ix2 r n) k = ix2 n k := fun k =>
    funext fun a => Fin.ext (by match a with | ⟨0, _⟩ => rfl | ⟨1, _⟩ => rfl)
  simp only [el24, er24, el26, er26]
  rfl

/-- A stacked slab's index with the leading coordinate dropped. -/
theorem slab_idx (r : Fin 8192) (n : Fin 1024) (f : S1x8192x1024.Idx → S8192x1024.Idx)
    (hf : ∀ i : S1x8192x1024.Idx, f i = fun a => match a with | ⟨0, _⟩ => ⟨(i 1).val, (i 1).isLt⟩ | ⟨1, _⟩ => ⟨(i 2).val, (i 2).isLt⟩) :
    f (ix3 (0 : Fin 1) r n) = ix2 r n := by
  rw [hf]; exact funext fun a => Fin.ext (by match a with | ⟨0, _⟩ => rfl | ⟨1, _⟩ => rfl)

/-- THE REFERENCE IS THE CELL STEP, entry by entry. -/
theorem result_at (s : Fin 4) (r : Fin 8192) (n : Fin 1024) :
    val_main_v37 (F := Ideal) x0 x1 x2 x3 x4 x5 x6 (ix3 s r n) = cellStepAt x0 x1 x2 x3 x4 x5 x6 s r n := by
  unfold val_main_v37 cellStepAt
  have hi : ∀ b : Fin S1x8192x1024.rank, b.cast (rfl : S1x8192x1024.rank = S4x8192x1024.rank) ≠ (0 : Fin S4x8192x1024.rank) →
      ((ix3 (0 : Fin 1) r n : S1x8192x1024.Idx) b).val = ((ix3 s r n : S4x8192x1024.Idx) (b.cast rfl)).val := fun b hb => by
    match b with
    | ⟨0, _⟩ => exact absurd rfl hb
    | ⟨1, _⟩ => rfl
    | ⟨2, _⟩ => rfl
  match s with
  | ⟨0, _⟩ =>
    refine (concatenate_apply_piece (0 : Fin S4x8192x1024.rank) _ _ (ix3 (⟨0, by omega⟩ : Fin 4) r n) 0 (by show (0 : Nat) < 4; omega) S1x8192x1024 _ rfl rfl 0 rfl (ix3 (0 : Fin 1) r n) hi rfl).trans ?_
    rw [val_main_v33_apply, slab_idx r n idx_main_v33 (fun _ => rfl), spike_at]; rfl
  | ⟨1, _⟩ =>
    refine (concatenate_apply_piece (0 : Fin S4x8192x1024.rank) _ _ (ix3 (⟨1, by omega⟩ : Fin 4) r n) 1 (by show (1 : Nat) < 4; omega) S1x8192x1024 _ rfl rfl 1 rfl (ix3 (0 : Fin 1) r n) hi rfl).trans ?_
    rw [val_main_v34_apply, slab_idx r n idx_main_v34 (fun _ => rfl), vNext_at]; rfl
  | ⟨2, _⟩ =>
    refine (concatenate_apply_piece (0 : Fin S4x8192x1024.rank) _ _ (ix3 (⟨2, by omega⟩ : Fin 4) r n) 2 (by show (2 : Nat) < 4; omega) S1x8192x1024 _ rfl rfl 2 rfl (ix3 (0 : Fin 1) r n) hi rfl).trans ?_
    rw [val_main_v35_apply, slab_idx r n idx_main_v35 (fun _ => rfl), iNext_at]; rfl
  | ⟨3, _⟩ =>
    refine (concatenate_apply_piece (0 : Fin S4x8192x1024.rank) _ _ (ix3 (⟨3, by omega⟩ : Fin 4) r n) 3 (by show (3 : Nat) < 4; omega) S1x8192x1024 _ rfl rfl 3 rfl (ix3 (0 : Fin 1) r n) hi rfl).trans ?_
    rw [val_main_v36_apply, slab_idx r n idx_main_v36 (fun _ => rfl), bNext_at]; rfl

/-- The reference's result array as one function of its arguments. -/
theorem result_eq :
    val_main_v37 (F := Ideal) x0 x1 x2 x3 x4 x5 x6 = fun j => cellStepAt x0 x1 x2 x3 x4 x5 x6 (j 0) (j 1) (j 2) := by
  funext j
  exact (congrArg (val_main_v37 (F := Ideal) x0 x1 x2 x3 x4 x5 x6) (eq_ix3 j)).trans (result_at x0 x1 x2 x3 x4 x5 x6 (j 0) (j 1) (j 2))

end Cert.Lsnn.Reference

end
-- ==== Proof.lean ====
/-
  One Euler step of a layer of adaptive-threshold spiking neurons, computed by a tiled kernel and by a plain array
  program, gives the same new state on the extended reals.

  Both programs take the input spikes [8192, 512], the previous spikes, voltages, currents and adaptations
  [8192, 1024] and the two weight arrays, and return the new spikes, voltages, currents and adaptations stacked as
  [4, 8192, 1024]. Entry by entry both are `cellStepAt` (Proof/CellStep.lean): the three pointwise components are the
  same expressions of the same float words; the current adds to its decay the products of the neuron's batch row
  with its input-weight row and with its recurrent-weight row. The kernel reads the weights transposed and contracts
  a block of 256 batch rows at a time, adding the two products to each other first; the array program contracts the
  last axes of the untransposed weights and adds the products one after the other. Those are the same sums over the
  same index, grouped differently: addition on the extended reals is associative, so no finiteness is needed and
  the precondition is never opened.

  The kernel's side is Proof/BodyStep.lean (the body's output block, entry by entry) and Proof/KernelStep.lean (the
  blocks are restrictions of one whole-array function and cover the result); the array program's side is
  Proof/ReferenceStep.lean. The three frames are the generated frame runs; the idealization rewrote nothing.
-/
import proofs.«102096_j49117245997795_2_alg».proof.Defs
import proofs.«102096_j49117245997795_2_alg».proof.Proof.Gen.Kernel
import proofs.«102096_j49117245997795_2_alg».proof.Proof.Gen.Kernel.Skeleton
import proofs.«102096_j49117245997795_2_alg».proof.Proof.Gen.Kernel.Launch
import proofs.«102096_j49117245997795_2_alg».proof.Proof.Gen.Kernel.Points
import proofs.«102096_j49117245997795_2_alg».proof.Proof.Gen.Kernel.Frame
import proofs.«102096_j49117245997795_2_alg».proof.Proof.Gen.KernelIdeal
import proofs.«102096_j49117245997795_2_alg».proof.Proof.Gen.KernelIdeal.Skeleton
import proofs.«102096_j49117245997795_2_alg».proof.Proof.Gen.KernelIdeal.Launch
import proofs.«102096_j49117245997795_2_alg».proof.Proof.Gen.KernelIdeal.Points
import proofs.«102096_j49117245997795_2_alg».proof.Proof.Gen.KernelIdeal.Frame
import proofs.«102096_j49117245997795_2_alg».proof.Proof.Gen.ReferenceIdeal
import proofs.«102096_j49117245997795_2_alg».proof.Proof.Gen.KernelIdeal.Value
import proofs.«102096_j49117245997795_2_alg».proof.Proof.Gen.ReferenceIdeal.Run
import proofs.«102096_j49117245997795_2_alg».proof.Proof.Gen.ReferenceIdeal.Read
import proofs.«102096_j49117245997795_2_alg».proof.Proof.Gen.Pre_finite_inputs
import proofs.«102096_j49117245997795_2_alg».proof.Proof.KernelStep
import proofs.«102096_j49117245997795_2_alg».proof.Proof.ReferenceStep
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The array program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the cell step of those arguments in their
    result array. -/
theorem algebraic : Cert.algebraic_KernelIdeal_ReferenceIdeal := by
  intro m ρ m' ρ' _ hagree
  refine ⟨fun c => Cert.Lsnn.Kernel.stepOf m c, Cert.Lsnn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.Lsnn.Reference.result_eq]
  obtain ⟨a0, a1, a2, a3, a4, a5, a6⟩ := hagree c
  rw [a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
